-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S1x10 : Shape := ⟨2, ![1, 10]⟩
abbrev S64x10 : Shape := ⟨2, ![64, 10]⟩

abbrev nBuf : Space → Nat
  | .hbm => 138
  | .vmem => 19
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x1, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x1, .f32⟩
  | 111 => ⟨S1700000x128, .f32⟩
  | 112 => ⟨S1700000x128, .f32⟩
  | 113 => ⟨S_, .f32⟩
  | 114 => ⟨S100000x128, .f32⟩
  | 115 => ⟨S1700000x1, .i32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S64x128, .f32⟩
  | 122 => ⟨S100000x1, .i32⟩
  | 123 => ⟨S64x128, .f32⟩
  | 124 => ⟨S_, .f32⟩
  | 125 => ⟨S100000, .f32⟩
  | 126 => ⟨S_, .f32⟩
  | 127 => ⟨S64, .f32⟩
  | _ => ⟨S100000x128, .f32⟩

abbrev hbmTy0_1 (i : Nat) : BufTy := match i % 128 with
  | 0 => ⟨S100000x1, .i32⟩
  | 1 => ⟨S64, .f32⟩
  | 2 => ⟨S_, .f32⟩
  | 3 => ⟨S64, .f32⟩
  | 4 => ⟨S64, .f32⟩
  | 5 => ⟨S64x1, .f32⟩
  | 6 => ⟨S64x128, .f32⟩
  | 7 => ⟨S64x128, .f32⟩
  | 8 => ⟨S1x10, .f32⟩
  | 9 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S64x128, .f32⟩
  | .local _ .vmem, ⟨16, _⟩ => ⟨S128x10, .f32⟩
  | .local _ .vmem, ⟨17, _⟩ => ⟨S1x10, .f32⟩
  | .local _ .vmem, ⟨18, _⟩ => ⟨S64x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_17 : Ref sig .tc := ⟨.hbm, 124, rfl⟩
abbrev main_v88 : Ref sig .tc := ⟨.hbm, 125, rfl⟩
abbrev main_cst_18 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc3_sem3_0 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x10.size a ≤ S128x10.size a
  hwx3_1 : ∀ i : grid3.Coords, EltTy.bits .f32 = 32 ∨ (Rect.block (s := S128x10) S128x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x10.size a ≤ S64x10.size a
  hwx3_3 : ∀ i : grid3.Coords, EltTy.bits .f32 = 32 ∨ (Rect.block (s := S64x10) S64x10.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v96) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v97) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v98) S64x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x1, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x1, .f32⟩
  | 111 => ⟨S1700000x128, .f32⟩
  | 112 => ⟨S1700000x128, .f32⟩
  | 113 => ⟨S_, .f32⟩
  | 114 => ⟨S100000x128, .f32⟩
  | 115 => ⟨S1700000x1, .i32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S64x128, .f32⟩
  | 122 => ⟨S100000x1, .i32⟩
  | 123 => ⟨S64x128, .f32⟩
  | 124 => ⟨S_, .f32⟩
  | 125 => ⟨S100000, .f32⟩
  | 126 => ⟨S_, .f32⟩
  | 127 => ⟨S64, .f32⟩
  | _ => ⟨S100000x128, .f32⟩

abbrev hbmTy0_1 (i : Nat) : BufTy := match i % 128 with
  | 0 => ⟨S100000x1, .i32⟩
  | 1 => ⟨S64, .f32⟩
  | 2 => ⟨S_, .f32⟩
  | 3 => ⟨S64, .f32⟩
  | 4 => ⟨S64, .f32⟩
  | 5 => ⟨S64x1, .f32⟩
  | 6 => ⟨S64x128, .f32⟩
  | 7 => ⟨S64x128, .f32⟩
  | 8 => ⟨S64x10, .f32⟩
  | 9 => ⟨S1x10, .f32⟩
  | 10 => ⟨S64x10, .f32⟩
  | 11 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_17 : Ref sig .tc := ⟨.hbm, 124, rfl⟩
abbrev main_v88 : Ref sig .tc := ⟨.hbm, 125, rfl⟩
abbrev main_cst_18 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.Segments.lean ====
/-
  The reference's 129 host operations cut into the eight segments that face the kernel's: the operations before the
  first product (43), that product, the operations up to the second product (22), that product, the operations up to
  the third (22), that product, the operations up to the last product (35), and the last four (product, two
  broadcasts of the bias, sum). The buffer contents after a list of operations is the fold of their results, so the
  contents after the whole list is the fold through the segments in order.
-/
import proofs.«143211_j4604204942041_1_alg».proof.Proof.RefRun
import proofs.«143211_j4604204942041_1_alg».proof.Proof.Gen.KernelIdeal
import Idealize.ShloMosaic.PureOps.Ideal

set_option maxRecDepth 16384

noncomputable section

namespace Cert.Sim

open Idealize.ShloMosaic Idealize.ShloMosaic.StableHlo Idealize.SL.Sem

section Fold
variable {τ : Topo} {sig : RefSig} {Val : EltTy → Type}

/-- The contents after two lists of operations in a row: the second list's fold from the first's. -/
theorem after_append (l₁ l₂ : List (HloOp τ sig Val)) (V : Valuation τ sig Val) :
    after (l₁ ++ l₂) V = after l₂ (after l₁ V) := by
  induction l₁ generalizing V with
  | nil => rfl
  | cons op l ih => exact ih _
end Fold

/-- The reference's operations at the ideal instance. -/
abbrev rops : List (HloOp Cert.ReferenceIdeal.τ Cert.ReferenceIdeal.sig (Elt Ideal)) := Cert.ReferenceIdeal.RunP.ops (F := Ideal)

abbrev seg0 := rops.take 43
abbrev dot0 := (rops.drop 43).take 1
abbrev seg1 := (rops.drop 44).take 22
abbrev dot1 := (rops.drop 66).take 1
abbrev seg2 := (rops.drop 67).take 22
abbrev dot2 := (rops.drop 89).take 1
abbrev seg3 := (rops.drop 90).take 35
abbrev last4 := rops.drop 125

theorem rops_split : rops = seg0 ++ (dot0 ++ (seg1 ++ (dot1 ++ (seg2 ++ (dot2 ++ (seg3 ++ last4)))))) := rfl

/-- The contents after the reference's whole list is the fold through the eight segments. -/
theorem after_rops (V : Valuation Cert.ReferenceIdeal.τ Cert.ReferenceIdeal.sig (Elt Ideal)) :
    after rops V = after last4 (after seg3 (after dot2 (after seg2 (after dot1 (after seg1 (after dot0 (after seg0 V))))))) := by
  conv_lhs => rw [rops_split]
  simp only [after_append]

section
open Cert.KernelIdeal Cert.KernelIdeal.Gen
/-- The concatenation of the edge list's row with the self loops, as a plain function of its two pieces. -/
def catEdges : (⟨S1600000, .i32⟩ : BufTy).Contents (Elt Ideal) → (⟨S100000, .i32⟩ : BufTy).Contents (Elt Ideal) → (⟨S1700000, .i32⟩ : BufTy).Contents (Elt Ideal) :=
  ((fun a b => concatenate S1700000 0 [⟨S1600000, a⟩, ⟨S100000, b⟩] concatenates_S1600000_S100000_S1700000_d0) : (⟨S1600000, .i32⟩ : BufTy).Contents (Elt Ideal) → (⟨S100000, .i32⟩ : BufTy).Contents (Elt Ideal) → (⟨S1700000, .i32⟩ : BufTy).Contents (Elt Ideal))
theorem catEdges_fun : ((fun a b => concatenate S1700000 0 [⟨S1600000, a⟩, ⟨S100000, b⟩] concatenates_S1600000_S100000_S1700000_d0) : (⟨S1600000, .i32⟩ : BufTy).Contents (Elt Ideal) → (⟨S100000, .i32⟩ : BufTy).Contents (Elt Ideal) → (⟨S1700000, .i32⟩ : BufTy).Contents (Elt Ideal)) = catEdges := rfl
end

end Cert.Sim

end
-- ==== Proof.RefFrame.lean ====
/-
  No operation of the reference writes an argument buffer, so the fold of its operations leaves each argument buffer
  at the contents it started from.
-/
import proofs.«143211_j4604204942041_1_alg».proof.Proof.Segments

set_option maxRecDepth 16384

noncomputable section

namespace Cert.Sim

open Idealize.ShloMosaic Idealize.ShloMosaic.StableHlo Idealize.SL.Sem

set_option maxHeartbeats 4000000 in
theorem ref_kept_arg0 (V : Valuation Cert.ReferenceIdeal.τ Cert.ReferenceIdeal.sig (Elt Ideal)) :
    after rops V (Proc.devRef .tc Cert.ReferenceIdeal.main_arg0) = V (Proc.devRef .tc Cert.ReferenceIdeal.main_arg0) := by
  simp only [rops, Cert.ReferenceIdeal.RunP.ops]
  after_results_simp

set_option maxHeartbeats 4000000 in
theorem ref_kept_arg1 (V : Valuation Cert.ReferenceIdeal.τ Cert.ReferenceIdeal.sig (Elt Ideal)) :
    after rops V (Proc.devRef .tc Cert.ReferenceIdeal.main_arg1) = V (Proc.devRef .tc Cert.ReferenceIdeal.main_arg1) := by
  simp only [rops, Cert.ReferenceIdeal.RunP.ops]
  after_results_simp

set_option maxHeartbeats 4000000 in
theorem ref_kept_arg2 (V : Valuation Cert.ReferenceIdeal.τ Cert.ReferenceIdeal.sig (Elt Ideal)) :
    after rops V (Proc.devRef .tc Cert.ReferenceIdeal.main_arg2) = V (Proc.devRef .tc Cert.ReferenceIdeal.main_arg2) := by
  simp only [rops, Cert.ReferenceIdeal.RunP.ops]
  after_results_simp

set_option maxHeartbeats 4000000 in
theorem ref_kept_arg3 (V : Valuation Cert.ReferenceIdeal.τ Cert.ReferenceIdeal.sig (Elt Ideal)) :
    after rops V (Proc.devRef .tc Cert.ReferenceIdeal.main_arg3) = V (Proc.devRef .tc Cert.ReferenceIdeal.main_arg3) := by
  simp only [rops, Cert.ReferenceIdeal.RunP.ops]
  after_results_simp

set_option maxHeartbeats 4000000 in
theorem ref_kept_arg4 (V : Valuation Cert.ReferenceIdeal.τ Cert.ReferenceIdeal.sig (Elt Ideal)) :
    after rops V (Proc.devRef .tc Cert.ReferenceIdeal.main_arg4) = V (Proc.devRef .tc Cert.ReferenceIdeal.main_arg4) := by
  simp only [rops, Cert.ReferenceIdeal.RunP.ops]
  after_results_simp

set_option maxHeartbeats 4000000 in
theorem ref_kept_arg5 (V : Valuation Cert.ReferenceIdeal.τ Cert.ReferenceIdeal.sig (Elt Ideal)) :
    after rops V (Proc.devRef .tc Cert.ReferenceIdeal.main_arg5) = V (Proc.devRef .tc Cert.ReferenceIdeal.main_arg5) := by
  simp only [rops, Cert.ReferenceIdeal.RunP.ops]
  after_results_simp

set_option maxHeartbeats 4000000 in
theorem ref_kept_arg6 (V : Valuation Cert.ReferenceIdeal.τ Cert.ReferenceIdeal.sig (Elt Ideal)) :
    after rops V (Proc.devRef .tc Cert.ReferenceIdeal.main_arg6) = V (Proc.devRef .tc Cert.ReferenceIdeal.main_arg6) := by
  simp only [rops, Cert.ReferenceIdeal.RunP.ops]
  after_results_simp

set_option maxHeartbeats 4000000 in
theorem ref_kept_arg7 (V : Valuation Cert.ReferenceIdeal.τ Cert.ReferenceIdeal.sig (Elt Ideal)) :
    after rops V (Proc.devRef .tc Cert.ReferenceIdeal.main_arg7) = V (Proc.devRef .tc Cert.ReferenceIdeal.main_arg7) := by
  simp only [rops, Cert.ReferenceIdeal.RunP.ops]
  after_results_simp

set_option maxHeartbeats 4000000 in
theorem ref_kept_arg8 (V : Valuation Cert.ReferenceIdeal.τ Cert.ReferenceIdeal.sig (Elt Ideal)) :
    after rops V (Proc.devRef .tc Cert.ReferenceIdeal.main_arg8) = V (Proc.devRef .tc Cert.ReferenceIdeal.main_arg8) := by
  simp only [rops, Cert.ReferenceIdeal.RunP.ops]
  after_results_simp

set_option maxHeartbeats 4000000 in
theorem ref_kept_arg9 (V : Valuation Cert.ReferenceIdeal.τ Cert.ReferenceIdeal.sig (Elt Ideal)) :
    after rops V (Proc.devRef .tc Cert.ReferenceIdeal.main_arg9) = V (Proc.devRef .tc Cert.ReferenceIdeal.main_arg9) := by
  simp only [rops, Cert.ReferenceIdeal.RunP.ops]
  after_results_simp

set_option maxHeartbeats 4000000 in
theorem ref_kept_arg10 (V : Valuation Cert.ReferenceIdeal.τ Cert.ReferenceIdeal.sig (Elt Ideal)) :
    after rops V (Proc.devRef .tc Cert.ReferenceIdeal.main_arg10) = V (Proc.devRef .tc Cert.ReferenceIdeal.main_arg10) := by
  simp only [rops, Cert.ReferenceIdeal.RunP.ops]
  after_results_simp

end Cert.Sim

end
-- ==== Proof.KernelRun.lean ====
/-
  The idealized kernel's run with its result named.

  @main is twelve segments: stretches of host operations and four kernel launches. The buffer contents at the
  segment boundaries are a fold from the launch memory: a stretch maps the contents through its operations, a
  launch replaces the arrays of its windows by what the grid's write-backs leave and keeps every other buffer.
  Every weakly fair execution terminates with every unscoped buffer at the last boundary's contents; read at
  the result buffer and at the eleven argument buffers, which nothing writes, this is the statement below.
-/
import proofs.«143211_j4604204942041_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same read at the result buffer and at the argument buffers, which no segment writes. -/
theorem run : θ_run defs (onTc (τ := τ) (main (F := F))) ⟨m, fun _ => 0, ρ⟩ (fun r => ∀ c : Dev nD,
      r.2.mem ((c.tc : Thread nD τ).loc main_v98) = W12 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
      ⟨h c _ (mem_uc main_v98 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)
    (run_all m ρ)

end Cert.KernelIdeal.Result

end
-- ==== Proof.Agreement.lean ====
/-
  Which buffers the idealized kernel and the idealized reference agree on at each boundary between segments.

  Both programs run the same host operations on buffers of the same names; where the reference has a dot_general the
  kernel has a launch. At a boundary the two programs' buffer contents agree on the buffers later segments still read:
  the arguments not yet consumed, the edge lists with self loops (v3: sources, v6: destinations), the edge
  normalization (v31), and the current layer's array.
-/
import proofs.«143211_j4604204942041_1_alg».proof.KernelIdeal
import proofs.«143211_j4604204942041_1_alg».proof.ReferenceIdeal
import Idealize.ShloMosaic.PureOps.Ideal
import Idealize.ShloMosaic.Lib.StableHlo.Run
import Idealize.ShloMosaic.Lib.ValueIdx

namespace Cert.Sim

open Idealize.ShloMosaic Idealize.ShloMosaic.StableHlo Idealize.ShloMosaic.ValueIdx Idealize.SL.Sem

/-- The kernel's buffer contents on one core. -/
abbrev KVal := Valuation Cert.KernelIdeal.τ Cert.KernelIdeal.sig (Elt Ideal)
/-- The reference's buffer contents on one core. -/
abbrev RVal := Valuation Cert.ReferenceIdeal.τ Cert.ReferenceIdeal.sig (Elt Ideal)

/-- The two programs' buffers of one name hold the same array. -/
macro "same% " WK:term:max WR:term:max b:ident : term =>
  `($WK (Proc.devRef .tc $(Lean.mkIdent (`Cert.KernelIdeal ++ b.getId))) = $WR (Proc.devRef .tc $(Lean.mkIdent (`Cert.ReferenceIdeal ++ b.getId))))

structure AtLaunch (WK : KVal) (WR : RVal) : Prop where
  arg0 : same% WK WR main_arg0
  arg1 : same% WK WR main_arg1
  arg2 : same% WK WR main_arg2
  arg3 : same% WK WR main_arg3
  arg4 : same% WK WR main_arg4
  arg5 : same% WK WR main_arg5
  arg6 : same% WK WR main_arg6
  arg7 : same% WK WR main_arg7
  arg8 : same% WK WR main_arg8
  arg9 : same% WK WR main_arg9
  arg10 : same% WK WR main_arg10

structure AtEntry0 (WK : KVal) (WR : RVal) : Prop where
  arg0 : same% WK WR main_arg0
  arg2 : same% WK WR main_arg2
  arg3 : same% WK WR main_arg3
  arg4 : same% WK WR main_arg4
  arg5 : same% WK WR main_arg5
  arg6 : same% WK WR main_arg6
  arg7 : same% WK WR main_arg7
  arg8 : same% WK WR main_arg8
  arg9 : same% WK WR main_arg9
  arg10 : same% WK WR main_arg10
  v3 : same% WK WR main_v3
  v6 : same% WK WR main_v6
  v31 : same% WK WR main_v31

structure AtExit0 (WK : KVal) (WR : RVal) : Prop where
  v32 : same% WK WR main_v32
  arg2 : same% WK WR main_arg2
  arg4 : same% WK WR main_arg4
  arg5 : same% WK WR main_arg5
  arg6 : same% WK WR main_arg6
  arg7 : same% WK WR main_arg7
  arg8 : same% WK WR main_arg8
  arg9 : same% WK WR main_arg9
  arg10 : same% WK WR main_arg10
  v3 : same% WK WR main_v3
  v6 : same% WK WR main_v6
  v31 : same% WK WR main_v31

structure AtEntry1 (WK : KVal) (WR : RVal) : Prop where
  v49 : same% WK WR main_v49
  arg2 : same% WK WR main_arg2
  arg5 : same% WK WR main_arg5
  arg6 : same% WK WR main_arg6
  arg7 : same% WK WR main_arg7
  arg8 : same% WK WR main_arg8
  arg9 : same% WK WR main_arg9
  arg10 : same% WK WR main_arg10
  v3 : same% WK WR main_v3
  v6 : same% WK WR main_v6
  v31 : same% WK WR main_v31

structure AtExit1 (WK : KVal) (WR : RVal) : Prop where
  v50 : same% WK WR main_v50
  arg2 : same% WK WR main_arg2
  arg6 : same% WK WR main_arg6
  arg7 : same% WK WR main_arg7
  arg8 : same% WK WR main_arg8
  arg9 : same% WK WR main_arg9
  arg10 : same% WK WR main_arg10
  v3 : same% WK WR main_v3
  v6 : same% WK WR main_v6
  v31 : same% WK WR main_v31

structure AtEntry2 (WK : KVal) (WR : RVal) : Prop where
  v67 : same% WK WR main_v67
  arg2 : same% WK WR main_arg2
  arg7 : same% WK WR main_arg7
  arg8 : same% WK WR main_arg8
  arg9 : same% WK WR main_arg9
  arg10 : same% WK WR main_arg10
  v3 : same% WK WR main_v3
  v6 : same% WK WR main_v6
  v31 : same% WK WR main_v31

structure AtExit2 (WK : KVal) (WR : RVal) : Prop where
  v68 : same% WK WR main_v68
  arg2 : same% WK WR main_arg2
  arg8 : same% WK WR main_arg8
  arg9 : same% WK WR main_arg9
  arg10 : same% WK WR main_arg10
  v3 : same% WK WR main_v3
  v6 : same% WK WR main_v6
  v31 : same% WK WR main_v31

/-- At the last launch's entry: the pooled array, the last weight, and the kernel's 1 x 10 bias row against the
    reference's length-10 bias. -/
structure AtEntry3 (WK : KVal) (WR : RVal) : Prop where
  v96 : same% WK WR main_v96
  arg9 : same% WK WR main_arg9
  v97 : ∀ q : Fin 10, WK (Proc.devRef .tc Cert.KernelIdeal.main_v97) (ix2 (0 : Fin 1) q)
    = WR (Proc.devRef .tc Cert.ReferenceIdeal.main_arg10) (ix1 q)

end Cert.Sim
-- ==== Proof.Stretch0.lean ====
/-
  The host operations before the first launch, on both programs: the edge lists with the self loops appended (sources
  v3, destinations v6), the degrees by a scatter-add of ones, their inverse square roots where positive, and the edge
  normalization v31 as the product of the two gathered factors. They read the edge-index argument alone, so from
  launch memories that agree on the arguments both programs reach the first product with the same edge lists and
  normalization, and with every other argument untouched.
-/
import proofs.«143211_j4604204942041_1_alg».proof.Proof.Agreement
import proofs.«143211_j4604204942041_1_alg».proof.Proof.Segments
import proofs.«143211_j4604204942041_1_alg».proof.Proof.Gen.KernelIdeal.Launch

set_option maxRecDepth 16384

noncomputable section

namespace Cert.Sim

open Idealize.ShloMosaic Idealize.ShloMosaic.StableHlo Idealize.ShloMosaic.ValueIdx Idealize.SL.Sem
open Cert.KernelIdeal.Gen (hostOps0 hostOps0_1 hostOps0_2)

/-- Both programs' folds over the stretch, each operation's result read at its own buffer and passed through at any
    other: what is left is one term over the contents at the stretch's entry on each side. -/
local macro "both_sides" : tactic => `(tactic| (
  simp only [Cert.KernelIdeal.Gen.hostOps0, Cert.KernelIdeal.Gen.hostOps0_1, Cert.KernelIdeal.Gen.hostOps0_2, seg0, rops, Cert.ReferenceIdeal.RunP.ops,
    List.take_succ_cons, List.take_zero, List.drop_succ_cons, List.drop_zero, catEdges_fun]
  after_results_simp))

set_option maxHeartbeats 4000000 in
theorem stretch0_arg0 (WK : KVal) (WR : RVal) (h_arg0 : same% WK WR main_arg0) :
    same% (after (hostOps0_2 (F := Ideal)) (after (hostOps0_1 (F := Ideal)) (after (hostOps0 (F := Ideal)) WK))) (after seg0 WR) main_arg0 := by
  both_sides
  exact h_arg0

set_option maxHeartbeats 4000000 in
theorem stretch0_arg2 (WK : KVal) (WR : RVal) (h_arg2 : same% WK WR main_arg2) :
    same% (after (hostOps0_2 (F := Ideal)) (after (hostOps0_1 (F := Ideal)) (after (hostOps0 (F := Ideal)) WK))) (after seg0 WR) main_arg2 := by
  both_sides
  exact h_arg2

set_option maxHeartbeats 4000000 in
theorem stretch0_arg3 (WK : KVal) (WR : RVal) (h_arg3 : same% WK WR main_arg3) :
    same% (after (hostOps0_2 (F := Ideal)) (after (hostOps0_1 (F := Ideal)) (after (hostOps0 (F := Ideal)) WK))) (after seg0 WR) main_arg3 := by
  both_sides
  exact h_arg3

set_option maxHeartbeats 4000000 in
theorem stretch0_arg4 (WK : KVal) (WR : RVal) (h_arg4 : same% WK WR main_arg4) :
    same% (after (hostOps0_2 (F := Ideal)) (after (hostOps0_1 (F := Ideal)) (after (hostOps0 (F := Ideal)) WK))) (after seg0 WR) main_arg4 := by
  both_sides
  exact h_arg4

set_option maxHeartbeats 4000000 in
theorem stretch0_arg5 (WK : KVal) (WR : RVal) (h_arg5 : same% WK WR main_arg5) :
    same% (after (hostOps0_2 (F := Ideal)) (after (hostOps0_1 (F := Ideal)) (after (hostOps0 (F := Ideal)) WK))) (after seg0 WR) main_arg5 := by
  both_sides
  exact h_arg5

set_option maxHeartbeats 4000000 in
theorem stretch0_arg6 (WK : KVal) (WR : RVal) (h_arg6 : same% WK WR main_arg6) :
    same% (after (hostOps0_2 (F := Ideal)) (after (hostOps0_1 (F := Ideal)) (after (hostOps0 (F := Ideal)) WK))) (after seg0 WR) main_arg6 := by
  both_sides
  exact h_arg6

set_option maxHeartbeats 4000000 in
theorem stretch0_arg7 (WK : KVal) (WR : RVal) (h_arg7 : same% WK WR main_arg7) :
    same% (after (hostOps0_2 (F := Ideal)) (after (hostOps0_1 (F := Ideal)) (after (hostOps0 (F := Ideal)) WK))) (after seg0 WR) main_arg7 := by
  both_sides
  exact h_arg7

set_option maxHeartbeats 4000000 in
theorem stretch0_arg8 (WK : KVal) (WR : RVal) (h_arg8 : same% WK WR main_arg8) :
    same% (after (hostOps0_2 (F := Ideal)) (after (hostOps0_1 (F := Ideal)) (after (hostOps0 (F := Ideal)) WK))) (after seg0 WR) main_arg8 := by
  both_sides
  exact h_arg8

set_option maxHeartbeats 4000000 in
theorem stretch0_arg9 (WK : KVal) (WR : RVal) (h_arg9 : same% WK WR main_arg9) :
    same% (after (hostOps0_2 (F := Ideal)) (after (hostOps0_1 (F := Ideal)) (after (hostOps0 (F := Ideal)) WK))) (after seg0 WR) main_arg9 := by
  both_sides
  exact h_arg9

set_option maxHeartbeats 4000000 in
theorem stretch0_arg10 (WK : KVal) (WR : RVal) (h_arg10 : same% WK WR main_arg10) :
    same% (after (hostOps0_2 (F := Ideal)) (after (hostOps0_1 (F := Ideal)) (after (hostOps0 (F := Ideal)) WK))) (after seg0 WR) main_arg10 := by
  both_sides
  exact h_arg10

set_option maxHeartbeats 4000000 in
theorem stretch0_v3 (WK : KVal) (WR : RVal) (h_arg1 : same% WK WR main_arg1) :
    same% (after (hostOps0_2 (F := Ideal)) (after (hostOps0_1 (F := Ideal)) (after (hostOps0 (F := Ideal)) WK))) (after seg0 WR) main_v3 := by
  both_sides
  simp only [h_arg1] <;> rfl

set_option maxHeartbeats 4000000 in
theorem stretch0_v6 (WK : KVal) (WR : RVal) (h_arg1 : same% WK WR main_arg1) :
    same% (after (hostOps0_2 (F := Ideal)) (after (hostOps0_1 (F := Ideal)) (after (hostOps0 (F := Ideal)) WK))) (after seg0 WR) main_v6 := by
  both_sides
  simp only [h_arg1] <;> rfl

set_option maxHeartbeats 4000000 in
theorem stretch0_v31 (WK : KVal) (WR : RVal) (h_arg1 : same% WK WR main_arg1) :
    same% (after (hostOps0_2 (F := Ideal)) (after (hostOps0_1 (F := Ideal)) (after (hostOps0 (F := Ideal)) WK))) (after seg0 WR) main_v31 := by
  both_sides
  simp only [h_arg1] <;> rfl

/-- The stretch keeps the two programs in agreement. -/
theorem stretch0 (WK : KVal) (WR : RVal) (h : AtLaunch WK WR) :
    AtEntry0 (after (hostOps0_2 (F := Ideal)) (after (hostOps0_1 (F := Ideal)) (after (hostOps0 (F := Ideal)) WK))) (after seg0 WR) where
  arg0 := stretch0_arg0 WK WR h.arg0
  arg2 := stretch0_arg2 WK WR h.arg2
  arg3 := stretch0_arg3 WK WR h.arg3
  arg4 := stretch0_arg4 WK WR h.arg4
  arg5 := stretch0_arg5 WK WR h.arg5
  arg6 := stretch0_arg6 WK WR h.arg6
  arg7 := stretch0_arg7 WK WR h.arg7
  arg8 := stretch0_arg8 WK WR h.arg8
  arg9 := stretch0_arg9 WK WR h.arg9
  arg10 := stretch0_arg10 WK WR h.arg10
  v3 := stretch0_v3 WK WR h.arg1
  v6 := stretch0_v6 WK WR h.arg1
  v31 := stretch0_v31 WK WR h.arg1

end Cert.Sim

end
-- ==== Proof.Stretch1.lean ====
/-
  The host operations between launch 0 and launch 1, on both programs: the rows of the product array v32 gathered
  at the edge sources, scaled by the edge normalization, scatter-added at the edge destinations, the bias arg4 added,
  and the rectifier. From contents that agree on the product array, the edge lists, the normalization and the bias,
  both programs reach the next product with the same layer array v49; the remaining arguments pass through.
-/
import proofs.«143211_j4604204942041_1_alg».proof.Proof.Agreement
import proofs.«143211_j4604204942041_1_alg».proof.Proof.Segments
import proofs.«143211_j4604204942041_1_alg».proof.Proof.Gen.KernelIdeal.Launch

set_option maxRecDepth 16384

noncomputable section

namespace Cert.Sim

open Idealize.ShloMosaic Idealize.ShloMosaic.StableHlo Idealize.ShloMosaic.ValueIdx Idealize.SL.Sem
open Cert.KernelIdeal.Gen (hostOps1 hostOps1_1)

/-- Both programs' folds over the stretch, each operation's result read at its own buffer and passed through at any
    other: what is left is one term over the contents at the stretch's entry on each side. -/
local macro "both_sides" : tactic => `(tactic| (
  simp only [Cert.KernelIdeal.Gen.hostOps1, Cert.KernelIdeal.Gen.hostOps1_1, seg1, rops, Cert.ReferenceIdeal.RunP.ops,
    List.take_succ_cons, List.take_zero, List.drop_succ_cons, List.drop_zero, catEdges_fun]
  after_results_simp))

set_option maxHeartbeats 4000000 in
theorem stretch1_v49 (WK : KVal) (WR : RVal) (h_v32 : same% WK WR main_v32) (h_v3 : same% WK WR main_v3) (h_v31 : same% WK WR main_v31) (h_v6 : same% WK WR main_v6) (h_arg4 : same% WK WR main_arg4) :
    same% (after (hostOps1_1 (F := Ideal)) (after (hostOps1 (F := Ideal)) WK)) (after seg1 WR) main_v49 := by
  both_sides
  simp only [h_v32, h_v3, h_v31, h_v6, h_arg4] <;> rfl

set_option maxHeartbeats 4000000 in
theorem stretch1_arg2 (WK : KVal) (WR : RVal) (h_arg2 : same% WK WR main_arg2) :
    same% (after (hostOps1_1 (F := Ideal)) (after (hostOps1 (F := Ideal)) WK)) (after seg1 WR) main_arg2 := by
  both_sides
  exact h_arg2

set_option maxHeartbeats 4000000 in
theorem stretch1_arg5 (WK : KVal) (WR : RVal) (h_arg5 : same% WK WR main_arg5) :
    same% (after (hostOps1_1 (F := Ideal)) (after (hostOps1 (F := Ideal)) WK)) (after seg1 WR) main_arg5 := by
  both_sides
  exact h_arg5

set_option maxHeartbeats 4000000 in
theorem stretch1_arg6 (WK : KVal) (WR : RVal) (h_arg6 : same% WK WR main_arg6) :
    same% (after (hostOps1_1 (F := Ideal)) (after (hostOps1 (F := Ideal)) WK)) (after seg1 WR) main_arg6 := by
  both_sides
  exact h_arg6

set_option maxHeartbeats 4000000 in
theorem stretch1_arg7 (WK : KVal) (WR : RVal) (h_arg7 : same% WK WR main_arg7) :
    same% (after (hostOps1_1 (F := Ideal)) (after (hostOps1 (F := Ideal)) WK)) (after seg1 WR) main_arg7 := by
  both_sides
  exact h_arg7

set_option maxHeartbeats 4000000 in
theorem stretch1_arg8 (WK : KVal) (WR : RVal) (h_arg8 : same% WK WR main_arg8) :
    same% (after (hostOps1_1 (F := Ideal)) (after (hostOps1 (F := Ideal)) WK)) (after seg1 WR) main_arg8 := by
  both_sides
  exact h_arg8

set_option maxHeartbeats 4000000 in
theorem stretch1_arg9 (WK : KVal) (WR : RVal) (h_arg9 : same% WK WR main_arg9) :
    same% (after (hostOps1_1 (F := Ideal)) (after (hostOps1 (F := Ideal)) WK)) (after seg1 WR) main_arg9 := by
  both_sides
  exact h_arg9

set_option maxHeartbeats 4000000 in
theorem stretch1_arg10 (WK : KVal) (WR : RVal) (h_arg10 : same% WK WR main_arg10) :
    same% (after (hostOps1_1 (F := Ideal)) (after (hostOps1 (F := Ideal)) WK)) (after seg1 WR) main_arg10 := by
  both_sides
  exact h_arg10

set_option maxHeartbeats 4000000 in
theorem stretch1_v3 (WK : KVal) (WR : RVal) (h_v3 : same% WK WR main_v3) :
    same% (after (hostOps1_1 (F := Ideal)) (after (hostOps1 (F := Ideal)) WK)) (after seg1 WR) main_v3 := by
  both_sides
  exact h_v3

set_option maxHeartbeats 4000000 in
theorem stretch1_v6 (WK : KVal) (WR : RVal) (h_v6 : same% WK WR main_v6) :
    same% (after (hostOps1_1 (F := Ideal)) (after (hostOps1 (F := Ideal)) WK)) (after seg1 WR) main_v6 := by
  both_sides
  exact h_v6

set_option maxHeartbeats 4000000 in
theorem stretch1_v31 (WK : KVal) (WR : RVal) (h_v31 : same% WK WR main_v31) :
    same% (after (hostOps1_1 (F := Ideal)) (after (hostOps1 (F := Ideal)) WK)) (after seg1 WR) main_v31 := by
  both_sides
  exact h_v31

/-- The stretch keeps the two programs in agreement. -/
theorem stretch1 (WK : KVal) (WR : RVal) (h : AtExit0 WK WR) :
    AtEntry1 (after (hostOps1_1 (F := Ideal)) (after (hostOps1 (F := Ideal)) WK)) (after seg1 WR) where
  v49 := stretch1_v49 WK WR h.v32 h.v3 h.v31 h.v6 h.arg4
  arg2 := stretch1_arg2 WK WR h.arg2
  arg5 := stretch1_arg5 WK WR h.arg5
  arg6 := stretch1_arg6 WK WR h.arg6
  arg7 := stretch1_arg7 WK WR h.arg7
  arg8 := stretch1_arg8 WK WR h.arg8
  arg9 := stretch1_arg9 WK WR h.arg9
  arg10 := stretch1_arg10 WK WR h.arg10
  v3 := stretch1_v3 WK WR h.v3
  v6 := stretch1_v6 WK WR h.v6
  v31 := stretch1_v31 WK WR h.v31

end Cert.Sim

end
-- ==== Proof.Stretch2.lean ====
/-
  The host operations between launch 1 and launch 2, on both programs: the rows of the product array v50 gathered
  at the edge sources, scaled by the edge normalization, scatter-added at the edge destinations, the bias arg6 added,
  and the rectifier. From contents that agree on the product array, the edge lists, the normalization and the bias,
  both programs reach the next product with the same layer array v67; the remaining arguments pass through.
-/
import proofs.«143211_j4604204942041_1_alg».proof.Proof.Agreement
import proofs.«143211_j4604204942041_1_alg».proof.Proof.Segments
import proofs.«143211_j4604204942041_1_alg».proof.Proof.Gen.KernelIdeal.Launch

set_option maxRecDepth 16384

noncomputable section

namespace Cert.Sim

open Idealize.ShloMosaic Idealize.ShloMosaic.StableHlo Idealize.ShloMosaic.ValueIdx Idealize.SL.Sem
open Cert.KernelIdeal.Gen (hostOps2 hostOps2_1)

/-- Both programs' folds over the stretch, each operation's result read at its own buffer and passed through at any
    other: what is left is one term over the contents at the stretch's entry on each side. -/
local macro "both_sides" : tactic => `(tactic| (
  simp only [Cert.KernelIdeal.Gen.hostOps2, Cert.KernelIdeal.Gen.hostOps2_1, seg2, rops, Cert.ReferenceIdeal.RunP.ops,
    List.take_succ_cons, List.take_zero, List.drop_succ_cons, List.drop_zero, catEdges_fun]
  after_results_simp))

set_option maxHeartbeats 4000000 in
theorem stretch2_v67 (WK : KVal) (WR : RVal) (h_v50 : same% WK WR main_v50) (h_v3 : same% WK WR main_v3) (h_v31 : same% WK WR main_v31) (h_v6 : same% WK WR main_v6) (h_arg6 : same% WK WR main_arg6) :
    same% (after (hostOps2_1 (F := Ideal)) (after (hostOps2 (F := Ideal)) WK)) (after seg2 WR) main_v67 := by
  both_sides
  simp only [h_v50, h_v3, h_v31, h_v6, h_arg6] <;> rfl

set_option maxHeartbeats 4000000 in
theorem stretch2_arg2 (WK : KVal) (WR : RVal) (h_arg2 : same% WK WR main_arg2) :
    same% (after (hostOps2_1 (F := Ideal)) (after (hostOps2 (F := Ideal)) WK)) (after seg2 WR) main_arg2 := by
  both_sides
  exact h_arg2

set_option maxHeartbeats 4000000 in
theorem stretch2_arg7 (WK : KVal) (WR : RVal) (h_arg7 : same% WK WR main_arg7) :
    same% (after (hostOps2_1 (F := Ideal)) (after (hostOps2 (F := Ideal)) WK)) (after seg2 WR) main_arg7 := by
  both_sides
  exact h_arg7

set_option maxHeartbeats 4000000 in
theorem stretch2_arg8 (WK : KVal) (WR : RVal) (h_arg8 : same% WK WR main_arg8) :
    same% (after (hostOps2_1 (F := Ideal)) (after (hostOps2 (F := Ideal)) WK)) (after seg2 WR) main_arg8 := by
  both_sides
  exact h_arg8

set_option maxHeartbeats 4000000 in
theorem stretch2_arg9 (WK : KVal) (WR : RVal) (h_arg9 : same% WK WR main_arg9) :
    same% (after (hostOps2_1 (F := Ideal)) (after (hostOps2 (F := Ideal)) WK)) (after seg2 WR) main_arg9 := by
  both_sides
  exact h_arg9

set_option maxHeartbeats 4000000 in
theorem stretch2_arg10 (WK : KVal) (WR : RVal) (h_arg10 : same% WK WR main_arg10) :
    same% (after (hostOps2_1 (F := Ideal)) (after (hostOps2 (F := Ideal)) WK)) (after seg2 WR) main_arg10 := by
  both_sides
  exact h_arg10

set_option maxHeartbeats 4000000 in
theorem stretch2_v3 (WK : KVal) (WR : RVal) (h_v3 : same% WK WR main_v3) :
    same% (after (hostOps2_1 (F := Ideal)) (after (hostOps2 (F := Ideal)) WK)) (after seg2 WR) main_v3 := by
  both_sides
  exact h_v3

set_option maxHeartbeats 4000000 in
theorem stretch2_v6 (WK : KVal) (WR : RVal) (h_v6 : same% WK WR main_v6) :
    same% (after (hostOps2_1 (F := Ideal)) (after (hostOps2 (F := Ideal)) WK)) (after seg2 WR) main_v6 := by
  both_sides
  exact h_v6

set_option maxHeartbeats 4000000 in
theorem stretch2_v31 (WK : KVal) (WR : RVal) (h_v31 : same% WK WR main_v31) :
    same% (after (hostOps2_1 (F := Ideal)) (after (hostOps2 (F := Ideal)) WK)) (after seg2 WR) main_v31 := by
  both_sides
  exact h_v31

/-- The stretch keeps the two programs in agreement. -/
theorem stretch2 (WK : KVal) (WR : RVal) (h : AtExit1 WK WR) :
    AtEntry2 (after (hostOps2_1 (F := Ideal)) (after (hostOps2 (F := Ideal)) WK)) (after seg2 WR) where
  v67 := stretch2_v67 WK WR h.v50 h.v3 h.v31 h.v6 h.arg6
  arg2 := stretch2_arg2 WK WR h.arg2
  arg7 := stretch2_arg7 WK WR h.arg7
  arg8 := stretch2_arg8 WK WR h.arg8
  arg9 := stretch2_arg9 WK WR h.arg9
  arg10 := stretch2_arg10 WK WR h.arg10
  v3 := stretch2_v3 WK WR h.v3
  v6 := stretch2_v6 WK WR h.v6
  v31 := stretch2_v31 WK WR h.v31

end Cert.Sim

end
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.Stretch3.lean ====
/-
  The host operations between the third and the last launch, on both programs: the third layer's aggregation (gather,
  scale, scatter-add, bias arg8, no rectifier), then the mean pool over graph ids — the scatter-add of the rows at
  the batch ids divided by the count of each id clamped below at one. The kernel also reshapes the length-10 bias
  arg10 to a 1 x 10 row (v97), which reads the bias at the column. From contents that agree on the third product,
  the edge lists, the normalization, the bias and the batch ids, both programs reach the last product with the same
  pooled array v96.
-/
import proofs.«143211_j4604204942041_1_alg».proof.Proof.Agreement
import proofs.«143211_j4604204942041_1_alg».proof.Proof.Segments
import proofs.«143211_j4604204942041_1_alg».proof.Proof.Gen.KernelIdeal.Launch
import proofs.«143211_j4604204942041_1_alg».proof.Proof.LibVectorAsMatrix

set_option maxRecDepth 16384

noncomputable section

namespace Cert.Sim

open Idealize.ShloMosaic Idealize.ShloMosaic.StableHlo Idealize.ShloMosaic.ValueIdx Idealize.SL.Sem
open Cert.KernelIdeal.Gen (hostOps3)

/-- Both programs' folds over the stretch, each operation's result read at its own buffer and passed through at any
    other: what is left is one term over the contents at the stretch's entry on each side. -/
local macro "both_sides" : tactic => `(tactic| (
  simp only [Cert.KernelIdeal.Gen.hostOps3, seg3, rops, Cert.ReferenceIdeal.RunP.ops,
    List.take_succ_cons, List.take_zero, List.drop_succ_cons, List.drop_zero, catEdges_fun]
  after_results_simp))

set_option maxHeartbeats 4000000 in
theorem stretch3_v96 (WK : KVal) (WR : RVal) (h_v68 : same% WK WR main_v68) (h_v3 : same% WK WR main_v3) (h_v31 : same% WK WR main_v31) (h_v6 : same% WK WR main_v6) (h_arg8 : same% WK WR main_arg8) (h_arg2 : same% WK WR main_arg2) :
    same% (after (hostOps3 (F := Ideal)) WK) (after seg3 WR) main_v96 := by
  both_sides
  simp only [h_v68, h_v3, h_v31, h_v6, h_arg8, h_arg2] <;> rfl

set_option maxHeartbeats 4000000 in
theorem stretch3_arg9 (WK : KVal) (WR : RVal) (h_arg9 : same% WK WR main_arg9) :
    same% (after (hostOps3 (F := Ideal)) WK) (after seg3 WR) main_arg9 := by
  both_sides
  exact h_arg9

/-- The kernel's bias row is the reshaped bias: entry (0, q) is the bias at q; the reference keeps the bias as it is. -/
theorem stretch3_v97 (WK : KVal) (WR : RVal) (h_arg10 : same% WK WR main_arg10) (q : Fin 10) :
    after (hostOps3 (F := Ideal)) WK (Proc.devRef .tc Cert.KernelIdeal.main_v97) (ix2 (0 : Fin 1) q)
      = after seg3 WR (Proc.devRef .tc Cert.ReferenceIdeal.main_arg10) (ix1 q) := by
  have eK : after (hostOps3 (F := Ideal)) WK (Proc.devRef .tc Cert.KernelIdeal.main_v97)
      = shapeCast Cert.KernelIdeal.S1x10 (WK (Proc.devRef .tc Cert.KernelIdeal.main_arg10)) Cert.KernelIdeal.Gen.shapeCasts_S10_S1x10 := by
    simp only [Cert.KernelIdeal.Gen.hostOps3]
    after_results_simp
    rfl
  have eR : after seg3 WR (Proc.devRef .tc Cert.ReferenceIdeal.main_arg10) = WR (Proc.devRef .tc Cert.ReferenceIdeal.main_arg10) := by
    simp only [seg3, rops, Cert.ReferenceIdeal.RunP.ops, List.take_succ_cons, List.take_zero, List.drop_succ_cons, List.drop_zero]
    after_results_simp
  rw [eK, eR, ← h_arg10]
  exact VectorAsMatrix.row_apply _ _ 0 q

/-- The stretch keeps the two programs in agreement. -/
theorem stretch3 (WK : KVal) (WR : RVal) (h : AtExit2 WK WR) :
    AtEntry3 (after (hostOps3 (F := Ideal)) WK) (after seg3 WR) where
  v96 := stretch3_v96 WK WR h.v68 h.v3 h.v31 h.v6 h.arg8 h.arg2
  arg9 := stretch3_arg9 WK WR h.arg9
  v97 := stretch3_v97 WK WR h.arg10

end Cert.Sim

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.RowsByCols.lean ====
/-
  The rows-by-columns product of an M x K and a K x N array of extended reals: entry (r, q) is the sum over k of
  a(r, k) * b(k, q). The host's dot_general with dimension numbers contracting the left operand's axis 1 against
  the right operand's axis 0 is this function.
-/
import Idealize.ShloMosaic.PureOps.Ideal
import Idealize.ShloMosaic.Lib.ValueIdx

noncomputable section

namespace Cert.Products

open Idealize.ShloMosaic Idealize.ShloMosaic.ValueIdx

/-- Entry (r, q) of the product is the sum over k of a(r, k) * b(k, q). -/
def rowsByCols {M K N : Nat} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

end Cert.Products

end
-- ==== Proof.RefProducts.lean ====
/-
  The reference's two dot_general operations, at the ideal instance, are the rows-by-columns product: with dimension
  numbers contracting the left operand's axis 1 against the right operand's axis 0 and no batch axis, entry (r, q)
  is the sum over k of a(r, k) * b(k, q) on the extended reals.
-/
import proofs.«143211_j4604204942041_1_alg».proof.ReferenceIdeal
import proofs.«143211_j4604204942041_1_alg».proof.Proof.Gen.ReferenceIdeal
import proofs.«143211_j4604204942041_1_alg».proof.Proof.LibMatmulRows
import proofs.«143211_j4604204942041_1_alg».proof.Proof.RowsByCols

noncomputable section

namespace Cert.Sim

open Idealize.ShloMosaic Idealize.ShloMosaic.ValueIdx
open Cert.Products (rowsByCols)

/-- A layer's product: 100000 x 128 by 128 x 128. -/
theorem layer_product (a : FVec Ideal Cert.ReferenceIdeal.S100000x128 .f32) (b : FVec Ideal Cert.ReferenceIdeal.S128x128 .f32) :
    Host.dotGeneral Cert.ReferenceIdeal.dot_S100000x128_S128x128_S100000x128_1_0_0_1_n_n none a b = rowsByCols a b := by
  funext i
  exact MatmulRows.dotGeneral_apply _ none _ rfl rfl rfl rfl (fun _ _ => rfl) (fun _ _ => rfl) a b i

/-- The last product: 64 x 128 by 128 x 10. -/
theorem last_product (a : FVec Ideal Cert.ReferenceIdeal.S64x128 .f32) (b : FVec Ideal Cert.ReferenceIdeal.S128x10 .f32) :
    Host.dotGeneral Cert.ReferenceIdeal.dot_S64x128_S128x10_S64x10_1_0_0_1_n_n none a b = rowsByCols a b := by
  funext i
  exact MatmulRows.dotGeneral_apply _ none _ rfl rfl rfl rfl (fun _ _ => rfl) (fun _ _ => rfl) a b i

end Cert.Sim

end
-- ==== Proof.Launch0.lean ====
/-
  What kernel launch 0 leaves in its output array, at the ideal instance.

  The launch runs over ten grid points. Point t stages rows 10000 t … 10000 t + 9999 of the left array (all 128
  columns) and the whole 128 x 128 right array, and writes back the product of the two blocks into the same rows
  of the output array: a change of float format is the identity on the extended reals, and a product into the
  zero accumulator is the plain sum over the contracted axis. Row r of the output is therefore written by point
  r / 10000 alone, and entry (r, q) ends at the sum over k of left(r, k) * right(k, q), whatever the contents of
  the buffers when the launch is entered.
-/
import proofs.«143211_j4604204942041_1_alg».proof.Proof.Gen.KernelIdeal.Frame
import proofs.«143211_j4604204942041_1_alg».proof.Proof.LibMatmulRows
import proofs.«143211_j4604204942041_1_alg».proof.Proof.RowsByCols
import Idealize.ShloMosaic.Lib.Pipeline.Value
import Idealize.ShloMosaic.Lib.ValueIdx

set_option maxRecDepth 16384

noncomputable section

namespace Cert.KernelIdeal.Launch0

open Cert.KernelIdeal Cert.KernelIdeal.Gen
open Idealize.ShloMosaic Idealize.ShloMosaic.TcCoe Idealize.ShloMosaic.ValueIdx Idealize.SL.Sem
open Idealize.ShloMosaic.Pipeline (Dat)
open Cert.Products (rowsByCols)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at an entry of the block: the row of the left block against the column of the right one. -/
theorem payload_apply (x0 : Vec Ideal S10000x128 .f32) (x1 : Vec Ideal S128x128 .f32) (j : S10000x128.Idx) :
    k0_pay1 x0 x1 j = ∑ k : Fin 128, x0 (ix2 (j 0) k) * x1 (ix2 k (j 1)) := by
  unfold k0_pay1
  exact MatmulRows.matmul_zero_apply dot_S10000x128_S128x128_S10000x128_1_0_0_1_n_n none rfl rfl rfl rfl
    (fun _ _ => rfl) (fun _ _ => rfl) _ _ j

/-- The printed index maps over the ten grid points: the left and the output window move down the rows with the
    point, every other block index is 0. -/
theorem index_maps : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the rows-by-columns product of the two arrays as the launch finds them. -/
theorem flushed_eq (c : Dev nD) (t : Fin cfg0.N) :
    (dat0 (F := Ideal) V c).flushed 2 t
      = ((cfg0.win 2).blk t).view.read (Elt Ideal) (rowsByCols (V c main_arg0) (V c main_arg3)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e0, e1, e2, e3, e4, e5⟩ := index_maps t
  funext j
  show k0_pay1 (iblk0 V c 0 t) (iblk0 V c 1 t) j
    = rowsByCols (V c main_arg0) (V c main_arg3) (((cfg0.win 2).blk t).view.emb j)
  refine (payload_apply (iblk0 V c 0 t) (iblk0 V c 1 t) j).trans ?_
  unfold rowsByCols
  refine Finset.sum_congr rfl fun k _ => ?_
  have hj0 : (j 0).val < 10000 := (j 0).isLt
  have hj1 : (j 1).val < 128 := (j 1).isLt
  have hl : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  have hr : iblk0 V c 1 t (ix2 k (j 1)) = V c main_arg3 (ix2 k ((((cfg0.win 2).blk t).view.emb j) 1)) := by
    show V c main_arg3 (((cfg0.win 1).blk t).view.emb (ix2 k (j 1))) = _
    refine congrArg (V c main_arg3) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega
  rw [hl, hr]

/-- An index of the output array is in point t's block iff each coordinate is in the block's range on its axis. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v32).slice (win0_2.rect t)).set ↔ _
  rw [View.set_slice_whole, Rect.mem_set_unit]
  exact Iff.rfl

/-- The output array after the launch is the rows-by-columns product of the two input arrays as the launch finds
    them: the ten blocks of rows cover it. -/
theorem array_after (c : Dev nD) :
    (dat0 (F := Ideal) V c).arrAt 2 cfg0.N = rowsByCols (V c main_arg0) (V c main_arg3) :=
  (dat0 V c).arrAt_eq_of_cover 2 _ (fun t _ => flushed_eq V c t) fun i => by
    have hi0 : (i 0).val < 100000 := (i 0).isLt
    have hi1 : (i 1).val < 128 := (i 1).isLt
    have hN : grid0.N = 10 := N_0
    obtain ⟨t, ht⟩ : ∃ t : Fin cfg0.N, t.val = (i 0).val / 10000 :=
      ⟨⟨(i 0).val / 10000, by show _ < grid0.N; omega⟩, rfl⟩
    obtain ⟨e0, e1, e2, e3, e4, e5⟩ := index_maps t
    refine ⟨t, flush0_2 t, ?_⟩
    rw [mem_block]
    intro a
    match a with
    | ⟨0, _⟩ =>
      show win0_2.index t (0 : Fin 2) * 10000 ≤ (i 0).val ∧ (i 0).val < win0_2.index t (0 : Fin 2) * 10000 + 10000
      omega
    | ⟨1, _⟩ =>
      show win0_2.index t (1 : Fin 2) * 128 ≤ (i 1).val ∧ (i 1).val < win0_2.index t (1 : Fin 2) * 128 + 128
      omega

end Cert.KernelIdeal.Launch0

end
-- ==== Proof.Cross0.lean ====
/-
  Crossing launch 0: where the reference computes the product of arg0 by arg3 with one dot_general, the kernel
  launches its tiled product. The launch replaces its output array v32 by the rows-by-columns product of the two
  input arrays as it finds them and keeps every other buffer; the dot_general writes the same product to the buffer
  of the same name and nothing else. So contents that agree before still agree after, now also on v32.
-/
import proofs.«143211_j4604204942041_1_alg».proof.Proof.Agreement
import proofs.«143211_j4604204942041_1_alg».proof.Proof.Segments
import proofs.«143211_j4604204942041_1_alg».proof.Proof.RefProducts
import proofs.«143211_j4604204942041_1_alg».proof.Proof.Launch0

set_option maxRecDepth 16384

noncomputable section

namespace Cert.Sim

open Idealize.ShloMosaic Idealize.ShloMosaic.TcCoe Idealize.ShloMosaic.StableHlo Idealize.ShloMosaic.ValueIdx Idealize.SL.Sem
open Cert.KernelIdeal.Gen
open Cert.Products (rowsByCols)

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The reference's one operation: its result read at its own buffer, any other buffer passed through. -/
local macro "ref_side" : tactic => `(tactic| (
  simp only [dot0, rops, Cert.ReferenceIdeal.RunP.ops, List.take_succ_cons, List.take_zero, List.drop_succ_cons, List.drop_zero]
  after_results_simp))

/-- The kernel's output array after the launch. -/
theorem cross0_kernel :
    W4 m ρ c (Proc.devRef .tc Cert.KernelIdeal.main_v32)
      = rowsByCols (W3 m ρ c (Proc.devRef .tc Cert.KernelIdeal.main_arg0)) (W3 m ρ c (Proc.devRef .tc Cert.KernelIdeal.main_arg3)) :=
  (W4_arr m ρ c 2).trans (Cert.KernelIdeal.Launch0.array_after (V3 m ρ) c)

/-- The reference's product buffer after its dot_general. -/
theorem cross0_reference (WR : RVal) :
    after dot0 WR (Proc.devRef .tc Cert.ReferenceIdeal.main_v32)
      = rowsByCols (WR (Proc.devRef .tc Cert.ReferenceIdeal.main_arg0)) (WR (Proc.devRef .tc Cert.ReferenceIdeal.main_arg3)) := by
  ref_side
  exact layer_product _ _

/-- Agreement before the launch gives agreement after it. -/
theorem cross0 (WR : RVal) (h : AtEntry0 (W3 m ρ c) WR) : AtExit0 (W4 m ρ c) (after dot0 WR) where
  v32 := by rw [cross0_kernel, cross0_reference, h.arg0, h.arg3]
  arg2 := (W4_of_ne m ρ c Cert.KernelIdeal.main_arg2 (by decide)).trans (h.arg2.trans (by ref_side))
  arg4 := (W4_of_ne m ρ c Cert.KernelIdeal.main_arg4 (by decide)).trans (h.arg4.trans (by ref_side))
  arg5 := (W4_of_ne m ρ c Cert.KernelIdeal.main_arg5 (by decide)).trans (h.arg5.trans (by ref_side))
  arg6 := (W4_of_ne m ρ c Cert.KernelIdeal.main_arg6 (by decide)).trans (h.arg6.trans (by ref_side))
  arg7 := (W4_of_ne m ρ c Cert.KernelIdeal.main_arg7 (by decide)).trans (h.arg7.trans (by ref_side))
  arg8 := (W4_of_ne m ρ c Cert.KernelIdeal.main_arg8 (by decide)).trans (h.arg8.trans (by ref_side))
  arg9 := (W4_of_ne m ρ c Cert.KernelIdeal.main_arg9 (by decide)).trans (h.arg9.trans (by ref_side))
  arg10 := (W4_of_ne m ρ c Cert.KernelIdeal.main_arg10 (by decide)).trans (h.arg10.trans (by ref_side))
  v3 := (W4_of_ne m ρ c Cert.KernelIdeal.main_v3 (by decide)).trans (h.v3.trans (by ref_side))
  v6 := (W4_of_ne m ρ c Cert.KernelIdeal.main_v6 (by decide)).trans (h.v6.trans (by ref_side))
  v31 := (W4_of_ne m ρ c Cert.KernelIdeal.main_v31 (by decide)).trans (h.v31.trans (by ref_side))

end Cert.Sim

end
-- ==== Proof.Launch1.lean ====
/-
  What kernel launch 1 leaves in its output array, at the ideal instance.

  The launch runs over ten grid points. Point t stages rows 10000 t … 10000 t + 9999 of the left array (all 128
  columns) and the whole 128 x 128 right array, and writes back the product of the two blocks into the same rows
  of the output array: a shape cast of the block to its own shape and a change of float format are the identity on the extended reals, and a product into the
  zero accumulator is the plain sum over the contracted axis. Row r of the output is therefore written by point
  r / 10000 alone, and entry (r, q) ends at the sum over k of left(r, k) * right(k, q), whatever the contents of
  the buffers when the launch is entered.
-/
import proofs.«143211_j4604204942041_1_alg».proof.Proof.Gen.KernelIdeal.Frame
import proofs.«143211_j4604204942041_1_alg».proof.Proof.LibMatmulRows
import proofs.«143211_j4604204942041_1_alg».proof.Proof.RowsByCols
import Idealize.ShloMosaic.Lib.Pipeline.Value
import Idealize.ShloMosaic.Lib.ValueIdx

set_option maxRecDepth 16384

noncomputable section

namespace Cert.KernelIdeal.Launch1

open Cert.KernelIdeal Cert.KernelIdeal.Gen
open Idealize.ShloMosaic Idealize.ShloMosaic.TcCoe Idealize.ShloMosaic.ValueIdx Idealize.SL.Sem
open Idealize.ShloMosaic.Pipeline (Dat)
open Cert.Products (rowsByCols)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at an entry of the block: the row of the left block against the column of the right one. -/
theorem payload_apply (x0 : Vec Ideal S10000x128 .f32) (x1 : Vec Ideal S128x128 .f32) (j : S10000x128.Idx) :
    k1_pay1 x0 x1 j = ∑ k : Fin 128, x0 (ix2 (j 0) k) * x1 (ix2 k (j 1)) := by
  unfold k1_pay1
  refine (MatmulRows.matmul_zero_apply dot_S10000x128_S128x128_S10000x128_1_0_0_1_n_n none rfl rfl rfl rfl
    (fun _ _ => rfl) (fun _ _ => rfl) _ _ j).trans ?_
  refine Finset.sum_congr rfl fun k _ => ?_
  rw [shapeCast_self]
  rfl

/-- The printed index maps over the ten grid points: the left and the output window move down the rows with the
    point, every other block index is 0. -/
theorem index_maps : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is block t of the rows-by-columns product of the two arrays as the launch finds them. -/
theorem flushed_eq (c : Dev nD) (t : Fin cfg1.N) :
    (dat1 (F := Ideal) V c).flushed 2 t
      = ((cfg1.win 2).blk t).view.read (Elt Ideal) (rowsByCols (V c main_v49) (V c main_arg5)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S128x128) zero_offsets]
  obtain ⟨e0, e1, e2, e3, e4, e5⟩ := index_maps t
  funext j
  show k1_pay1 (iblk1 V c 0 t) (iblk1 V c 1 t) j
    = rowsByCols (V c main_v49) (V c main_arg5) (((cfg1.win 2).blk t).view.emb j)
  refine (payload_apply (iblk1 V c 0 t) (iblk1 V c 1 t) j).trans ?_
  unfold rowsByCols
  refine Finset.sum_congr rfl fun k _ => ?_
  have hj0 : (j 0).val < 10000 := (j 0).isLt
  have hj1 : (j 1).val < 128 := (j 1).isLt
  have hl : iblk1 V c 0 t (ix2 (j 0) k) = V c main_v49 (ix2 ((((cfg1.win 2).blk t).view.emb j) 0) k) := by
    show V c main_v49 (((cfg1.win 0).blk t).view.emb (ix2 (j 0) k)) = _
    refine congrArg (V c main_v49) (funext fun a => Fin.ext ?_)
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 128 + 1 * k.val = k.val
      omega
  have hr : iblk1 V c 1 t (ix2 k (j 1)) = V c main_arg5 (ix2 k ((((cfg1.win 2).blk t).view.emb j) 1)) := by
    show V c main_arg5 (((cfg1.win 1).blk t).view.emb (ix2 k (j 1))) = _
    refine congrArg (V c main_arg5) (funext fun a => Fin.ext ?_)
    match a with
    | ⟨0, _⟩ =>
      show win1_1.index t (0 : Fin 2) * 128 + 1 * k.val = k.val
      omega
    | ⟨1, _⟩ =>
      show win1_1.index t (1 : Fin 2) * 128 + 1 * (j 1).val = win1_2.index t (1 : Fin 2) * 128 + 1 * (j 1).val
      omega
  rw [hl, hr]

/-- An index of the output array is in point t's block iff each coordinate is in the block's range on its axis. -/
theorem mem_block (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v50).slice (win1_2.rect t)).set ↔ _
  rw [View.set_slice_whole, Rect.mem_set_unit]
  exact Iff.rfl

/-- The output array after the launch is the rows-by-columns product of the two input arrays as the launch finds
    them: the ten blocks of rows cover it. -/
theorem array_after (c : Dev nD) :
    (dat1 (F := Ideal) V c).arrAt 2 cfg1.N = rowsByCols (V c main_v49) (V c main_arg5) :=
  (dat1 V c).arrAt_eq_of_cover 2 _ (fun t _ => flushed_eq V c t) fun i => by
    have hi0 : (i 0).val < 100000 := (i 0).isLt
    have hi1 : (i 1).val < 128 := (i 1).isLt
    have hN : grid1.N = 10 := N_1
    obtain ⟨t, ht⟩ : ∃ t : Fin cfg1.N, t.val = (i 0).val / 10000 :=
      ⟨⟨(i 0).val / 10000, by show _ < grid1.N; omega⟩, rfl⟩
    obtain ⟨e0, e1, e2, e3, e4, e5⟩ := index_maps t
    refine ⟨t, flush1_2 t, ?_⟩
    rw [mem_block]
    intro a
    match a with
    | ⟨0, _⟩ =>
      show win1_2.index t (0 : Fin 2) * 10000 ≤ (i 0).val ∧ (i 0).val < win1_2.index t (0 : Fin 2) * 10000 + 10000
      omega
    | ⟨1, _⟩ =>
      show win1_2.index t (1 : Fin 2) * 128 ≤ (i 1).val ∧ (i 1).val < win1_2.index t (1 : Fin 2) * 128 + 128
      omega

end Cert.KernelIdeal.Launch1

end
-- ==== Proof.Cross1.lean ====
/-
  Crossing launch 1: where the reference computes the product of v49 by arg5 with one dot_general, the kernel
  launches its tiled product. The launch replaces its output array v50 by the rows-by-columns product of the two
  input arrays as it finds them and keeps every other buffer; the dot_general writes the same product to the buffer
  of the same name and nothing else. So contents that agree before still agree after, now also on v50.
-/
import proofs.«143211_j4604204942041_1_alg».proof.Proof.Agreement
import proofs.«143211_j4604204942041_1_alg».proof.Proof.Segments
import proofs.«143211_j4604204942041_1_alg».proof.Proof.RefProducts
import proofs.«143211_j4604204942041_1_alg».proof.Proof.Launch1

set_option maxRecDepth 16384

noncomputable section

namespace Cert.Sim

open Idealize.ShloMosaic Idealize.ShloMosaic.TcCoe Idealize.ShloMosaic.StableHlo Idealize.ShloMosaic.ValueIdx Idealize.SL.Sem
open Cert.KernelIdeal.Gen
open Cert.Products (rowsByCols)

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The reference's one operation: its result read at its own buffer, any other buffer passed through. -/
local macro "ref_side" : tactic => `(tactic| (
  simp only [dot1, rops, Cert.ReferenceIdeal.RunP.ops, List.take_succ_cons, List.take_zero, List.drop_succ_cons, List.drop_zero]
  after_results_simp))

/-- The kernel's output array after the launch. -/
theorem cross1_kernel :
    W7 m ρ c (Proc.devRef .tc Cert.KernelIdeal.main_v50)
      = rowsByCols (W6 m ρ c (Proc.devRef .tc Cert.KernelIdeal.main_v49)) (W6 m ρ c (Proc.devRef .tc Cert.KernelIdeal.main_arg5)) :=
  (W7_arr m ρ c 2).trans (Cert.KernelIdeal.Launch1.array_after (V6 m ρ) c)

/-- The reference's product buffer after its dot_general. -/
theorem cross1_reference (WR : RVal) :
    after dot1 WR (Proc.devRef .tc Cert.ReferenceIdeal.main_v50)
      = rowsByCols (WR (Proc.devRef .tc Cert.ReferenceIdeal.main_v49)) (WR (Proc.devRef .tc Cert.ReferenceIdeal.main_arg5)) := by
  ref_side
  exact layer_product _ _

/-- Agreement before the launch gives agreement after it. -/
theorem cross1 (WR : RVal) (h : AtEntry1 (W6 m ρ c) WR) : AtExit1 (W7 m ρ c) (after dot1 WR) where
  v50 := by rw [cross1_kernel, cross1_reference, h.v49, h.arg5]
  arg2 := (W7_of_ne m ρ c Cert.KernelIdeal.main_arg2 (by decide)).trans (h.arg2.trans (by ref_side))
  arg6 := (W7_of_ne m ρ c Cert.KernelIdeal.main_arg6 (by decide)).trans (h.arg6.trans (by ref_side))
  arg7 := (W7_of_ne m ρ c Cert.KernelIdeal.main_arg7 (by decide)).trans (h.arg7.trans (by ref_side))
  arg8 := (W7_of_ne m ρ c Cert.KernelIdeal.main_arg8 (by decide)).trans (h.arg8.trans (by ref_side))
  arg9 := (W7_of_ne m ρ c Cert.KernelIdeal.main_arg9 (by decide)).trans (h.arg9.trans (by ref_side))
  arg10 := (W7_of_ne m ρ c Cert.KernelIdeal.main_arg10 (by decide)).trans (h.arg10.trans (by ref_side))
  v3 := (W7_of_ne m ρ c Cert.KernelIdeal.main_v3 (by decide)).trans (h.v3.trans (by ref_side))
  v6 := (W7_of_ne m ρ c Cert.KernelIdeal.main_v6 (by decide)).trans (h.v6.trans (by ref_side))
  v31 := (W7_of_ne m ρ c Cert.KernelIdeal.main_v31 (by decide)).trans (h.v31.trans (by ref_side))

end Cert.Sim

end
-- ==== Proof.Launch2.lean ====
/-
  What kernel launch 2 leaves in its output array, at the ideal instance.

  The launch runs over ten grid points. Point t stages rows 10000 t … 10000 t + 9999 of the left array (all 128
  columns) and the whole 128 x 128 right array, and writes back the product of the two blocks into the same rows
  of the output array: a shape cast of the block to its own shape and a change of float format are the identity on the extended reals, and a product into the
  zero accumulator is the plain sum over the contracted axis. Row r of the output is therefore written by point
  r / 10000 alone, and entry (r, q) ends at the sum over k of left(r, k) * right(k, q), whatever the contents of
  the buffers when the launch is entered.
-/
import proofs.«143211_j4604204942041_1_alg».proof.Proof.Gen.KernelIdeal.Frame
import proofs.«143211_j4604204942041_1_alg».proof.Proof.LibMatmulRows
import proofs.«143211_j4604204942041_1_alg».proof.Proof.RowsByCols
import Idealize.ShloMosaic.Lib.Pipeline.Value
import Idealize.ShloMosaic.Lib.ValueIdx

set_option maxRecDepth 16384

noncomputable section

namespace Cert.KernelIdeal.Launch2

open Cert.KernelIdeal Cert.KernelIdeal.Gen
open Idealize.ShloMosaic Idealize.ShloMosaic.TcCoe Idealize.ShloMosaic.ValueIdx Idealize.SL.Sem
open Idealize.ShloMosaic.Pipeline (Dat)
open Cert.Products (rowsByCols)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at an entry of the block: the row of the left block against the column of the right one. -/
theorem payload_apply (x0 : Vec Ideal S10000x128 .f32) (x1 : Vec Ideal S128x128 .f32) (j : S10000x128.Idx) :
    k2_pay1 x0 x1 j = ∑ k : Fin 128, x0 (ix2 (j 0) k) * x1 (ix2 k (j 1)) := by
  unfold k2_pay1
  refine (MatmulRows.matmul_zero_apply dot_S10000x128_S128x128_S10000x128_1_0_0_1_n_n none rfl rfl rfl rfl
    (fun _ _ => rfl) (fun _ _ => rfl) _ _ j).trans ?_
  refine Finset.sum_congr rfl fun k _ => ?_
  rw [shapeCast_self]
  rfl

/-- The printed index maps over the ten grid points: the left and the output window move down the rows with the
    point, every other block index is 0. -/
theorem index_maps : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the rows-by-columns product of the two arrays as the launch finds them. -/
theorem flushed_eq (c : Dev nD) (t : Fin cfg2.N) :
    (dat2 (F := Ideal) V c).flushed 2 t
      = ((cfg2.win 2).blk t).view.read (Elt Ideal) (rowsByCols (V c main_v67) (V c main_arg7)) := by
  show (cfg2.win 2).cut (grid2.coords t) ((dat2 V c).after 2 t) = _
  rw [after2_2]
  unfold out2_2
  rw [View.canon_unit_zero zero_offsets]
  simp only [View.ld_unit_zero (S := S10000x128) zero_offsets, View.ld_unit_zero (S := S128x128) zero_offsets]
  obtain ⟨e0, e1, e2, e3, e4, e5⟩ := index_maps t
  funext j
  show k2_pay1 (iblk2 V c 0 t) (iblk2 V c 1 t) j
    = rowsByCols (V c main_v67) (V c main_arg7) (((cfg2.win 2).blk t).view.emb j)
  refine (payload_apply (iblk2 V c 0 t) (iblk2 V c 1 t) j).trans ?_
  unfold rowsByCols
  refine Finset.sum_congr rfl fun k _ => ?_
  have hj0 : (j 0).val < 10000 := (j 0).isLt
  have hj1 : (j 1).val < 128 := (j 1).isLt
  have hl : iblk2 V c 0 t (ix2 (j 0) k) = V c main_v67 (ix2 ((((cfg2.win 2).blk t).view.emb j) 0) k) := by
    show V c main_v67 (((cfg2.win 0).blk t).view.emb (ix2 (j 0) k)) = _
    refine congrArg (V c main_v67) (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 128 + 1 * k.val = k.val
      omega
  have hr : iblk2 V c 1 t (ix2 k (j 1)) = V c main_arg7 (ix2 k ((((cfg2.win 2).blk t).view.emb j) 1)) := by
    show V c main_arg7 (((cfg2.win 1).blk t).view.emb (ix2 k (j 1))) = _
    refine congrArg (V c main_arg7) (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega
  rw [hl, hr]

/-- An index of the output array is in point t's block iff each coordinate is in the block's range on its axis. -/
theorem mem_block (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v68).slice (win2_2.rect t)).set ↔ _
  rw [View.set_slice_whole, Rect.mem_set_unit]
  exact Iff.rfl

/-- The output array after the launch is the rows-by-columns product of the two input arrays as the launch finds
    them: the ten blocks of rows cover it. -/
theorem array_after (c : Dev nD) :
    (dat2 (F := Ideal) V c).arrAt 2 cfg2.N = rowsByCols (V c main_v67) (V c main_arg7) :=
  (dat2 V c).arrAt_eq_of_cover 2 _ (fun t _ => flushed_eq V c t) fun i => by
    have hi0 : (i 0).val < 100000 := (i 0).isLt
    have hi1 : (i 1).val < 128 := (i 1).isLt
    have hN : grid2.N = 10 := N_2
    obtain ⟨t, ht⟩ : ∃ t : Fin cfg2.N, t.val = (i 0).val / 10000 :=
      ⟨⟨(i 0).val / 10000, by show _ < grid2.N; omega⟩, rfl⟩
    obtain ⟨e0, e1, e2, e3, e4, e5⟩ := index_maps t
    refine ⟨t, flush2_2 t, ?_⟩
    rw [mem_block]
    intro a
    match a with
    | ⟨0, _⟩ =>
      show win2_2.index t (0 : Fin 2) * 10000 ≤ (i 0).val ∧ (i 0).val < win2_2.index t (0 : Fin 2) * 10000 + 10000
      omega
    | ⟨1, _⟩ =>
      show win2_2.index t (1 : Fin 2) * 128 ≤ (i 1).val ∧ (i 1).val < win2_2.index t (1 : Fin 2) * 128 + 128
      omega

end Cert.KernelIdeal.Launch2

end
-- ==== Proof.Cross2.lean ====
/-
  Crossing launch 2: where the reference computes the product of v67 by arg7 with one dot_general, the kernel
  launches its tiled product. The launch replaces its output array v68 by the rows-by-columns product of the two
  input arrays as it finds them and keeps every other buffer; the dot_general writes the same product to the buffer
  of the same name and nothing else. So contents that agree before still agree after, now also on v68.
-/
import proofs.«143211_j4604204942041_1_alg».proof.Proof.Agreement
import proofs.«143211_j4604204942041_1_alg».proof.Proof.Segments
import proofs.«143211_j4604204942041_1_alg».proof.Proof.RefProducts
import proofs.«143211_j4604204942041_1_alg».proof.Proof.Launch2

set_option maxRecDepth 16384

noncomputable section

namespace Cert.Sim

open Idealize.ShloMosaic Idealize.ShloMosaic.TcCoe Idealize.ShloMosaic.StableHlo Idealize.ShloMosaic.ValueIdx Idealize.SL.Sem
open Cert.KernelIdeal.Gen
open Cert.Products (rowsByCols)

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The reference's one operation: its result read at its own buffer, any other buffer passed through. -/
local macro "ref_side" : tactic => `(tactic| (
  simp only [dot2, rops, Cert.ReferenceIdeal.RunP.ops, List.take_succ_cons, List.take_zero, List.drop_succ_cons, List.drop_zero]
  after_results_simp))

/-- The kernel's output array after the launch. -/
theorem cross2_kernel :
    W10 m ρ c (Proc.devRef .tc Cert.KernelIdeal.main_v68)
      = rowsByCols (W9 m ρ c (Proc.devRef .tc Cert.KernelIdeal.main_v67)) (W9 m ρ c (Proc.devRef .tc Cert.KernelIdeal.main_arg7)) :=
  (W10_arr m ρ c 2).trans (Cert.KernelIdeal.Launch2.array_after (V9 m ρ) c)

/-- The reference's product buffer after its dot_general. -/
theorem cross2_reference (WR : RVal) :
    after dot2 WR (Proc.devRef .tc Cert.ReferenceIdeal.main_v68)
      = rowsByCols (WR (Proc.devRef .tc Cert.ReferenceIdeal.main_v67)) (WR (Proc.devRef .tc Cert.ReferenceIdeal.main_arg7)) := by
  ref_side
  exact layer_product _ _

/-- Agreement before the launch gives agreement after it. -/
theorem cross2 (WR : RVal) (h : AtEntry2 (W9 m ρ c) WR) : AtExit2 (W10 m ρ c) (after dot2 WR) where
  v68 := by rw [cross2_kernel, cross2_reference, h.v67, h.arg7]
  arg2 := (W10_of_ne m ρ c Cert.KernelIdeal.main_arg2 (by decide)).trans (h.arg2.trans (by ref_side))
  arg8 := (W10_of_ne m ρ c Cert.KernelIdeal.main_arg8 (by decide)).trans (h.arg8.trans (by ref_side))
  arg9 := (W10_of_ne m ρ c Cert.KernelIdeal.main_arg9 (by decide)).trans (h.arg9.trans (by ref_side))
  arg10 := (W10_of_ne m ρ c Cert.KernelIdeal.main_arg10 (by decide)).trans (h.arg10.trans (by ref_side))
  v3 := (W10_of_ne m ρ c Cert.KernelIdeal.main_v3 (by decide)).trans (h.v3.trans (by ref_side))
  v6 := (W10_of_ne m ρ c Cert.KernelIdeal.main_v6 (by decide)).trans (h.v6.trans (by ref_side))
  v31 := (W10_of_ne m ρ c Cert.KernelIdeal.main_v31 (by decide)).trans (h.v31.trans (by ref_side))

end Cert.Sim

end
-- ==== Proof.Launch3.lean ====
/-
  What the last kernel launch leaves in its output array, at the ideal instance.

  The launch has one grid point. It stages the whole 64 x 128 left array, the whole 128 x 10 right array and the
  whole 1 x 10 bias row, and writes back product + bias: a shape cast of a block to its own shape and a change of
  float format are the identity on the extended reals, a product into the zero accumulator is the plain sum over
  the contracted axis, and a 1 x 10 row broadcast to 64 x 10 reads the row at the column. Entry (r, q) of the
  output ends at the sum over k of left(r, k) * right(k, q), plus bias(0, q).
-/
import proofs.«143211_j4604204942041_1_alg».proof.Proof.Gen.KernelIdeal.Frame
import proofs.«143211_j4604204942041_1_alg».proof.Proof.LibMatmulRows
import proofs.«143211_j4604204942041_1_alg».proof.Proof.RowsByCols
import Idealize.ShloMosaic.Lib.Pipeline.Value
import Idealize.ShloMosaic.Lib.ValueIdx

set_option maxRecDepth 16384

noncomputable section

namespace Cert.KernelIdeal.Launch3

open Cert.KernelIdeal Cert.KernelIdeal.Gen
open Idealize.ShloMosaic Idealize.ShloMosaic.TcCoe Idealize.ShloMosaic.ValueIdx Idealize.SL.Sem
open Idealize.ShloMosaic.Pipeline (Dat)
open Cert.Products (rowsByCols)

variable (V : (c : Dev nD) → (b : Ref sig .tc) → Buf (Elt Ideal) ((c : Thread nD τ).loc b))

theorem zero_offsets : (![0, 0] : Fin 2 → Nat) = fun _ => 0 := funext fun a => by fin_cases a <;> rfl

/-- The product of a 64 x 128 by a 128 x 10 array plus a 1 x 10 row repeated down the rows. -/
def productPlusRow (a : FVec Ideal S64x128 .f32) (b : FVec Ideal S128x10 .f32) (l : FVec Ideal S1x10 .f32) :
    FVec Ideal S64x10 .f32 :=
  fun i => rowsByCols a b i + l (ix2 (0 : Fin 1) (i 1))

/-- The body's stored value at an entry: the row of the left block against the column of the right one, plus the
    bias row at the column. -/
theorem payload_apply (x0 : Vec Ideal S64x128 .f32) (x1 : Vec Ideal S128x10 .f32) (x2 : Vec Ideal S1x10 .f32)
    (j : S64x10.Idx) :
    k3_pay1 x0 x1 x2 j = (∑ k : Fin 128, x0 (ix2 (j 0) k) * x1 (ix2 k (j 1))) + x2 (ix2 (0 : Fin 1) (j 1)) := by
  unfold k3_pay1
  refine (addf_apply _ _ j).trans ?_
  refine congrArg₂ (· + ·) ?_ ?_
  · refine (MatmulRows.matmul_zero_apply dot_S64x128_S128x10_S64x10_1_0_0_1_n_n none rfl rfl rfl rfl
      (fun _ _ => rfl) (fun _ _ => rfl) _ _ j).trans ?_
    refine Finset.sum_congr rfl fun k _ => ?_
    rw [shapeCast_self]
    rfl
  · rw [shapeCast_self]
    exact broadcastTo_apply x2 broadcasts_S1x10_S64x10 j (ix2 (0 : Fin 1) (j 1)) (fun a => match a with
      | ⟨0, _⟩ => rfl
      | ⟨1, _⟩ => rfl)

/-- The printed index maps at the one grid point: every block index is 0. -/
theorem index_maps : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- What the point writes back is the whole of product + bias row of the three arrays as the launch finds them. -/
theorem flushed_eq (c : Dev nD) (t : Fin cfg3.N) :
    (dat3 (F := Ideal) V c).flushed 3 t
      = ((cfg3.win 3).blk t).view.read (Elt Ideal) (productPlusRow (V c main_v96) (V c main_arg9) (V c main_v97)) := by
  show (cfg3.win 3).cut (grid3.coords t) ((dat3 V c).after 3 t) = _
  rw [after3_3]
  unfold out3_3
  rw [View.canon_unit_zero zero_offsets]
  simp only [View.ld_unit_zero (S := S64x128) zero_offsets, View.ld_unit_zero (S := S128x10) zero_offsets,
    View.ld_unit_zero (S := S1x10) zero_offsets]
  obtain ⟨e0, e1, e2, e3, e4, e5, e6, e7⟩ := index_maps t
  funext j
  show k3_pay1 (iblk3 V c 0 t) (iblk3 V c 1 t) (iblk3 V c 2 t) j
    = productPlusRow (V c main_v96) (V c main_arg9) (V c main_v97) (((cfg3.win 3).blk t).view.emb j)
  refine (payload_apply (iblk3 V c 0 t) (iblk3 V c 1 t) (iblk3 V c 2 t) j).trans ?_
  unfold productPlusRow rowsByCols
  have hj0 : (j 0).val < 64 := (j 0).isLt
  have hj1 : (j 1).val < 10 := (j 1).isLt
  have hl : ∀ k : Fin 128, iblk3 V c 0 t (ix2 (j 0) k) = V c main_v96 (ix2 ((((cfg3.win 3).blk t).view.emb j) 0) k) := by
    intro k
    show V c main_v96 (((cfg3.win 0).blk t).view.emb (ix2 (j 0) k)) = _
    refine congrArg (V c main_v96) (funext fun a => Fin.ext ?_)
    match a with
    | ⟨0, _⟩ =>
      show win3_0.index t (0 : Fin 2) * 64 + 1 * (j 0).val = win3_3.index t (0 : Fin 2) * 64 + 1 * (j 0).val
      omega
    | ⟨1, _⟩ =>
      show win3_0.index t (1 : Fin 2) * 128 + 1 * k.val = k.val
      omega
  have hr : ∀ k : Fin 128, iblk3 V c 1 t (ix2 k (j 1)) = V c main_arg9 (ix2 k ((((cfg3.win 3).blk t).view.emb j) 1)) := by
    intro k
    show V c main_arg9 (((cfg3.win 1).blk t).view.emb (ix2 k (j 1))) = _
    refine congrArg (V c main_arg9) (funext fun a => Fin.ext ?_)
    match a with
    | ⟨0, _⟩ =>
      show win3_1.index t (0 : Fin 2) * 128 + 1 * k.val = k.val
      omega
    | ⟨1, _⟩ =>
      show win3_1.index t (1 : Fin 2) * 10 + 1 * (j 1).val = win3_3.index t (1 : Fin 2) * 10 + 1 * (j 1).val
      omega
  have hb : iblk3 V c 2 t (ix2 (0 : Fin 1) (j 1)) = V c main_v97 (ix2 (0 : Fin 1) ((((cfg3.win 3).blk t).view.emb j) 1)) := by
    show V c main_v97 (((cfg3.win 2).blk t).view.emb (ix2 (0 : Fin 1) (j 1))) = _
    refine congrArg (V c main_v97) (funext fun a => Fin.ext ?_)
    match a with
    | ⟨0, _⟩ =>
      show win3_2.index t (0 : Fin 2) * 1 + 1 * 0 = 0
      omega
    | ⟨1, _⟩ =>
      show win3_2.index t (1 : Fin 2) * 10 + 1 * (j 1).val = win3_3.index t (1 : Fin 2) * 10 + 1 * (j 1).val
      omega
  rw [hb]
  exact congrArg (· + _) (Finset.sum_congr rfl fun k _ => by rw [hl k, hr k])

/-- An index of the output array is in the point's block iff each coordinate is in the block's range on its axis. -/
theorem mem_block (t : Fin cfg3.N) (i : S64x10.Idx) :
    i ∈ ((cfg3.win 3).blk t).view.set ↔ ∀ a : Fin 2, win3_3.index t a * S64x10.size a ≤ (i a).val
      ∧ (i a).val < win3_3.index t a * S64x10.size a + S64x10.size a := by
  show i ∈ ((View.whole main_v98).slice (win3_3.rect t)).set ↔ _
  rw [View.set_slice_whole, Rect.mem_set_unit]
  exact Iff.rfl

/-- The output array after the launch is product + bias row of the three input arrays as the launch finds them: the
    one block is the whole array. -/
theorem array_after (c : Dev nD) :
    (dat3 (F := Ideal) V c).arrAt 3 cfg3.N = productPlusRow (V c main_v96) (V c main_arg9) (V c main_v97) :=
  (dat3 V c).arrAt_eq_of_cover 3 _ (fun t _ => flushed_eq V c t) fun i => by
    have hi0 : (i 0).val < 64 := (i 0).isLt
    have hi1 : (i 1).val < 10 := (i 1).isLt
    have hN : grid3.N = 1 := N_3
    obtain ⟨t, ht⟩ : ∃ t : Fin cfg3.N, t.val = 0 := ⟨⟨0, by show _ < grid3.N; omega⟩, rfl⟩
    obtain ⟨e0, e1, e2, e3, e4, e5, e6, e7⟩ := index_maps t
    refine ⟨t, flush3_3 t, ?_⟩
    rw [mem_block]
    intro a
    match a with
    | ⟨0, _⟩ =>
      show win3_3.index t (0 : Fin 2) * 64 ≤ (i 0).val ∧ (i 0).val < win3_3.index t (0 : Fin 2) * 64 + 64
      omega
    | ⟨1, _⟩ =>
      show win3_3.index t (1 : Fin 2) * 10 ≤ (i 1).val ∧ (i 1).val < win3_3.index t (1 : Fin 2) * 10 + 10
      omega

end Cert.KernelIdeal.Launch3

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.Cross3.lean ====
/-
  Crossing the last launch: the reference ends with dot_general(v96, arg9), the length-10 bias made a 1 x 10 row and
  repeated down 64 rows, and their sum; the kernel launches product + bias row with the bias already reshaped to a
  1 x 10 row. Entry (r, q) is, on both sides, the sum over k of v96(r, k) * arg9(k, q) plus the bias at q.
-/
import proofs.«143211_j4604204942041_1_alg».proof.Proof.Agreement
import proofs.«143211_j4604204942041_1_alg».proof.Proof.Segments
import proofs.«143211_j4604204942041_1_alg».proof.Proof.RefProducts
import proofs.«143211_j4604204942041_1_alg».proof.Proof.Launch3
import proofs.«143211_j4604204942041_1_alg».proof.Proof.LibHostBroadcast

set_option maxRecDepth 16384

noncomputable section

namespace Cert.Sim

open Idealize.ShloMosaic Idealize.ShloMosaic.TcCoe Idealize.ShloMosaic.StableHlo Idealize.ShloMosaic.ValueIdx Idealize.SL.Sem
open Cert.KernelIdeal.Gen
open Cert.Products (rowsByCols)

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The kernel's result array after the last launch. -/
theorem cross3_kernel :
    W12 m ρ c (Proc.devRef .tc Cert.KernelIdeal.main_v98)
      = Cert.KernelIdeal.Launch3.productPlusRow (W11 m ρ c (Proc.devRef .tc Cert.KernelIdeal.main_v96))
          (W11 m ρ c (Proc.devRef .tc Cert.KernelIdeal.main_arg9)) (W11 m ρ c (Proc.devRef .tc Cert.KernelIdeal.main_v97)) :=
  (W12_arr m ρ c 3).trans (Cert.KernelIdeal.Launch3.array_after (V11 m ρ) c)

/-- Product + bias row of arrays that agree with the reference's is what the reference's last four operations leave. -/
theorem cross3_reference (WK : KVal) (WR : RVal) (h : AtEntry3 WK WR) :
    Cert.KernelIdeal.Launch3.productPlusRow (WK (Proc.devRef .tc Cert.KernelIdeal.main_v96))
        (WK (Proc.devRef .tc Cert.KernelIdeal.main_arg9)) (WK (Proc.devRef .tc Cert.KernelIdeal.main_v97))
      = after last4 WR (Proc.devRef .tc Cert.ReferenceIdeal.main_v100) := by
  simp only [last4, rops, Cert.ReferenceIdeal.RunP.ops, List.drop_succ_cons, List.drop_zero]
  after_results_simp
  funext j
  refine Eq.trans ?_ (addf_apply _ _ j).symm
  refine congrArg₂ (· + ·) ?_ ?_
  · rw [h.v96, h.arg9, last_product]
  · exact (h.v97 (j 1)).trans (HostBroadcast.bias_apply _ _ _ j).symm

/-- Agreement before the last launch gives equal results. -/
theorem cross3 (WR : RVal) (h : AtEntry3 (W11 m ρ c) WR) :
    W12 m ρ c (Proc.devRef .tc Cert.KernelIdeal.main_v98) = after last4 WR (Proc.devRef .tc Cert.ReferenceIdeal.main_v100) :=
  (cross3_kernel m ρ c).trans (cross3_reference (W11 m ρ c) WR h)

end Cert.Sim

end
-- ==== Proof.Bridge.lean ====
/-
  The two programs' results are equal.

  Both programs are the same host operations around four products; the kernel computes each product by a launch, the
  reference by a dot_general. Starting from launch memories that agree on the arguments, the buffer contents of the
  two programs agree at every boundary on what later segments read: a stretch of host operations is the same function
  of the same buffers on both sides, and a launch leaves in its output array the rows-by-columns product that the
  dot_general writes. After the last product the result buffers hold the same array.
-/
import proofs.«143211_j4604204942041_1_alg».proof.Proof.Stretch0
import proofs.«143211_j4604204942041_1_alg».proof.Proof.Stretch1
import proofs.«143211_j4604204942041_1_alg».proof.Proof.Stretch2
import proofs.«143211_j4604204942041_1_alg».proof.Proof.Stretch3
import proofs.«143211_j4604204942041_1_alg».proof.Proof.Cross0
import proofs.«143211_j4604204942041_1_alg».proof.Proof.Cross1
import proofs.«143211_j4604204942041_1_alg».proof.Proof.Cross2
import proofs.«143211_j4604204942041_1_alg».proof.Proof.Cross3

set_option maxRecDepth 16384

noncomputable section

namespace Cert.Sim

open Idealize.ShloMosaic Idealize.ShloMosaic.TcCoe Idealize.ShloMosaic.StableHlo Idealize.SL.Sem
open Cert.KernelIdeal.Gen

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (m' : (ℓ : Loc Cert.ReferenceIdeal.nD Cert.ReferenceIdeal.τ Cert.ReferenceIdeal.sig) → Buf (Elt Ideal) ℓ)

/-- From launch memories that agree on the arguments, the kernel's result buffer at the last boundary holds what the
    reference's result buffer holds after all its operations. -/
theorem results_agree (h : AtLaunch (W0 m ρ c) (launchContents m' c)) :
    W12 m ρ c (Proc.devRef .tc Cert.KernelIdeal.main_v98)
      = after rops (launchContents m' c) (Proc.devRef .tc Cert.ReferenceIdeal.main_v100) := by
  rw [after_rops]
  have a3 := stretch0 _ _ h
  have a4 := cross0 m ρ c _ a3
  have a6 := stretch1 _ _ a4
  have a7 := cross1 m ρ c _ a6
  have a9 := stretch2 _ _ a7
  have a10 := cross2 m ρ c _ a9
  have a11 := stretch3 _ _ a10
  exact cross3 m ρ c _ a11

end Cert.Sim

end
-- ==== Proof.lean ====
/-
  A three-layer graph convolution with mean pooling and a linear head, on 100000 nodes and 1600000 edges: the kernel
  against its reference.

  Both programs compute, with self loops appended to the edge list and the symmetric degree normalization
  norm(e) = deg(src e)^(-1/2) * deg(dst e)^(-1/2), three layers h ← (segment sum over dst of (h W)[src] * norm) + b
  (a rectifier after the first two), the mean of the rows over graph ids, and a final pooled * lin_W + lin_b. They
  differ in one thing only: the four dense products are dot_general operations in the reference and tiled kernel
  launches in the kernel, whose bodies cast the blocks to bf16 before the product. On the extended reals a change of
  float format is the identity and a product into the zero accumulator is the plain sum over the contracted axis, so
  each launch leaves in its output array exactly the array the dot_general writes (Launch0 … Launch3, RefProducts),
  and every other operation is the same function of the same buffers on both sides (Stretch0 … Stretch3). Hence the
  results are equal entry by entry (Bridge); no finiteness of the inputs is used. The ideal pass rewrote nothing, so
  the idealization claim has no conjunct; the three frames are the programs' runs with the results dropped.
-/
import proofs.«143211_j4604204942041_1_alg».proof.Defs
import proofs.«143211_j4604204942041_1_alg».proof.Proof.Gen.Kernel
import proofs.«143211_j4604204942041_1_alg».proof.Proof.Gen.Kernel.Frame
import proofs.«143211_j4604204942041_1_alg».proof.Proof.Gen.KernelIdeal
import proofs.«143211_j4604204942041_1_alg».proof.Proof.Gen.KernelIdeal.Frame
import proofs.«143211_j4604204942041_1_alg».proof.Proof.Gen.ReferenceIdeal
import proofs.«143211_j4604204942041_1_alg».proof.Proof.Gen.Pre_finite_inputs
import proofs.«143211_j4604204942041_1_alg».proof.Proof.RefRun
import proofs.«143211_j4604204942041_1_alg».proof.Proof.RefFrame
import proofs.«143211_j4604204942041_1_alg».proof.Proof.KernelRun
import proofs.«143211_j4604204942041_1_alg».proof.Proof.Bridge
import Idealize.ShloMosaic.Adequacy
import Idealize.ShloMosaic.Init

noncomputable section

namespace Cert.Proof

open Idealize.ShloMosaic Idealize.ShloMosaic.StableHlo Idealize.SL.Sem

/-- The kernel as printed runs and leaves its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs, and no operation of it writes an argument. -/
theorem frame_reference : Cert.frame_ReferenceIdeal := fun m ρ _ =>
  (θ_run Cert.ReferenceIdeal.defs _ _).mono (fun _ h c =>
    ⟨(h c Cert.ReferenceIdeal.main_arg0).trans (Cert.Sim.ref_kept_arg0 _),
     (h c Cert.ReferenceIdeal.main_arg1).trans (Cert.Sim.ref_kept_arg1 _),
     (h c Cert.ReferenceIdeal.main_arg2).trans (Cert.Sim.ref_kept_arg2 _),
     (h c Cert.ReferenceIdeal.main_arg3).trans (Cert.Sim.ref_kept_arg3 _),
     (h c Cert.ReferenceIdeal.main_arg4).trans (Cert.Sim.ref_kept_arg4 _),
     (h c Cert.ReferenceIdeal.main_arg5).trans (Cert.Sim.ref_kept_arg5 _),
     (h c Cert.ReferenceIdeal.main_arg6).trans (Cert.Sim.ref_kept_arg6 _),
     (h c Cert.ReferenceIdeal.main_arg7).trans (Cert.Sim.ref_kept_arg7 _),
     (h c Cert.ReferenceIdeal.main_arg8).trans (Cert.Sim.ref_kept_arg8 _),
     (h c Cert.ReferenceIdeal.main_arg9).trans (Cert.Sim.ref_kept_arg9 _),
     (h c Cert.ReferenceIdeal.main_arg10).trans (Cert.Sim.ref_kept_arg10 _)⟩)
    (Cert.ReferenceIdeal.RunP.run (F := Ideal) m ρ)

/-- The ideal pass rewrote no operation. -/
theorem preserves : Cert.preserves_Kernel_KernelIdeal := trivial

/-- From memories that agree on the arguments both idealized programs run, the kernel ends with its result buffer at
    the last boundary's contents, and the reference's result buffer holds the same array. -/
theorem algebraic : Cert.algebraic_KernelIdeal_ReferenceIdeal := by
  intro m ρ m' ρ' _ hagree
  refine ⟨fun c => Cert.KernelIdeal.Gen.W12 m ρ c (Proc.devRef .tc Cert.KernelIdeal.main_v98),
    Cert.KernelIdeal.Result.run m ρ, ?_⟩
  refine (θ_run Cert.ReferenceIdeal.defs _ _).mono (fun r h c => ?_) (Cert.ReferenceIdeal.RunP.run (F := Ideal) m' ρ')
  have hc := hagree c
  exact ⟨(h c Cert.ReferenceIdeal.main_v100).trans
      (Cert.Sim.results_agree m ρ c m' ⟨hc.1.symm, hc.2.1.symm, hc.2.2.1.symm, hc.2.2.2.1.symm, hc.2.2.2.2.1.symm, hc.2.2.2.2.2.1.symm, hc.2.2.2.2.2.2.1.symm, hc.2.2.2.2.2.2.2.1.symm, hc.2.2.2.2.2.2.2.2.1.symm, hc.2.2.2.2.2.2.2.2.2.1.symm, hc.2.2.2.2.2.2.2.2.2.2.symm⟩).symm,
     (h c Cert.ReferenceIdeal.main_arg0).trans (Cert.Sim.ref_kept_arg0 _),
     (h c Cert.ReferenceIdeal.main_arg1).trans (Cert.Sim.ref_kept_arg1 _),
     (h c Cert.ReferenceIdeal.main_arg2).trans (Cert.Sim.ref_kept_arg2 _),
     (h c Cert.ReferenceIdeal.main_arg3).trans (Cert.Sim.ref_kept_arg3 _),
     (h c Cert.ReferenceIdeal.main_arg4).trans (Cert.Sim.ref_kept_arg4 _),
     (h c Cert.ReferenceIdeal.main_arg5).trans (Cert.Sim.ref_kept_arg5 _),
     (h c Cert.ReferenceIdeal.main_arg6).trans (Cert.Sim.ref_kept_arg6 _),
     (h c Cert.ReferenceIdeal.main_arg7).trans (Cert.Sim.ref_kept_arg7 _),
     (h c Cert.ReferenceIdeal.main_arg8).trans (Cert.Sim.ref_kept_arg8 _),
     (h c Cert.ReferenceIdeal.main_arg9).trans (Cert.Sim.ref_kept_arg9 _),
     (h c Cert.ReferenceIdeal.main_arg10).trans (Cert.Sim.ref_kept_arg10 _)⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
